-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x512 .f32) (main_arg6 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x2048x512 .f32) (main_arg1 : FVec F S512x512 .f32) (main_arg2 : FVec F S512 .f32) (main_arg3 : FVec F S512x512 .f32) (main_arg4 : FVec F S512 .f32) (main_arg5 : FVec F S512x512 .f32) (main_arg6 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S4x2048x512 : Shape := ⟨3, ![4, 2048, 512]⟩
abbrev S512x512 : Shape := ⟨2, ![512, 512]⟩
abbrev S512 : Shape := ⟨1, ![512]⟩
abbrev S1x2048x512 : Shape := ⟨3, ![1, 2048, 512]⟩
abbrev S2048x512 : Shape := ⟨2, ![2048, 512]⟩
abbrev S1x512 : Shape := ⟨2, ![1, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x256x512 : Shape := ⟨3, ![1, 256, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S1x2048x512, .f32⟩
  | .local _ .vmem, ⟨9, _⟩ => ⟨S1x2048x512, .f32⟩
  | .local _ .vmem, ⟨10, _⟩ => ⟨S2048x512, .f32⟩
  | .local _ .vmem, ⟨11, _⟩ => ⟨S2048x512, .f32⟩
  | .local _ .vmem, ⟨12, _⟩ => ⟨S2048x512, .bf16⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c8_i32 : BitVec 32 := 8#32
  let v36 : BitVec 32 := Scalar.addi c0_i32 c8_i32
  let c1_i32 : BitVec 32 := 1#32
  ⟨c0_i32, v36, c1_i32⟩
def k0_mult1 (k0_t1 : Fin k0_t1_loop.trips) : BitVec 32 :=
  let c0_i32_25 : BitVec 32 := 0#32
  let c0_i32 : BitVec 32 := 0#32
  let c1_i32 : BitVec 32 := 1#32
  let arg12 : BitVec 32 := Scf.iv c0_i32 c1_i32 k0_t1
  let c1_i32_24 : BitVec 32 := 1#32
  let v37 : BitVec 32 := Scalar.muli arg12 c1_i32_24
  let v38 : BitVec 32 := Scalar.addi c0_i32_25 v37
  let c256_i32 : BitVec 32 := 256#32
  let v39 : BitVec 32 := Scalar.muli v38 c256_i32
  v39
def k0_off1 (k0_t1 : Fin k0_t1_loop.trips) : Fin 2 → Nat :=
  let c0_i32_25 : BitVec 32 := 0#32
  let c0_i32 : BitVec 32 := 0#32
  let c1_i32 : BitVec 32 := 1#32
  let arg12 : BitVec 32 := Scf.iv c0_i32 c1_i32 k0_t1
  let c1_i32_24 : BitVec 32 := 1#32
  let v37 : BitVec 32 := Scalar.muli arg12 c1_i32_24
  let v38 : BitVec 32 := Scalar.addi c0_i32_25 v37
  let c256_i32 : BitVec 32 := 256#32
  let v39 : BitVec 32 := Scalar.muli v38 c256_i32
  let v40 : BitVec 32 := v39
  let v41 : Index := Scalar.indexCast v40
  let c0_26 : Index := 0#32
  ![v41.toNat, 0]
def k0_off2 (k0_t1 : Fin k0_t1_loop.trips) : Fin 3 → Nat :=
  let c0_31 : Index := 0#32
  let c0_i32_25 : BitVec 32 := 0#32
  let c0_i32 : BitVec 32 := 0#32
  let c1_i32 : BitVec 32 := 1#32
  let arg12 : BitVec 32 := Scf.iv c0_i32 c1_i32 k0_t1
  let c1_i32_24 : BitVec 32 := 1#32
  let v37 : BitVec 32 := Scalar.muli arg12 c1_i32_24
  let v38 : BitVec 32 := Scalar.addi c0_i32_25 v37
  let c256_i32 : BitVec 32 := 256#32
  let v39 : BitVec 32 := Scalar.muli v38 c256_i32
  let v40 : BitVec 32 := v39
  let v55 : Index := Scalar.indexCast v40
  let c0_32 : Index := 0#32
  ![0, v55.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  h_S256x512 : 0 < S256x512.numel
  reduces_S256x2048_S256 : S256x2048.Reduces [1] S256
  shapeCasts_S256_S256x1 : S256.ShapeCasts S256x1
  broadcasts_S256x1_S256x2048 : S256x1.Broadcasts S256x2048
  h_S1x256x512 : 0 < S1x256x512.numel
  shapeCasts_S1x256x512_S256x512 : S1x256x512.ShapeCasts S256x512
  shapeCasts_S256x512_S1x256x512 : S256x512.ShapeCasts S1x256x512
  dot_S2048x512_S512x512_S2048x512_1_0_0_1_n_n_wf : DotDims.WF S2048x512 S512x512 S2048x512 [1] [0] [0] [1] [] []
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x512.size a ≤ S2048x512.size a
  k0_off2_inb : ∀ k0_t1 : Fin k0_t1_loop.trips, ∀ a, (k0_off2 k0_t1) a + S1x256x512.size a ≤ S1x2048x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S4x2048x512.size a
  hwx0_7 : ∀ i : grid0.Coords, EltTy.bits .f32 = 32 ∨ (Rect.block (s := S4x2048x512) S1x2048x512.size (cc0_transform_7 i) (hinb0_7 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S512x512 : Shape := ⟨2, ![512, 512]⟩
abbrev S512 : Shape := ⟨1, ![512]⟩
abbrev S1x1x512 : Shape := ⟨3, ![1, 1, 512]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S4x2048x512, .f32⟩
  | .hbm, ⟨8, _⟩ => ⟨S1x1x512, .f32⟩
  | .hbm, ⟨9, _⟩ => ⟨S4x2048x512, .f32⟩
  | .hbm, ⟨10, _⟩ => ⟨S4x2048x512, .f32⟩
  | .hbm, ⟨11, _⟩ => ⟨S4x2048x512, .f32⟩
  | .hbm, ⟨12, _⟩ => ⟨S1x1x512, .f32⟩
  | .hbm, ⟨13, _⟩ => ⟨S4x2048x512, .f32⟩
  | .hbm, ⟨14, _⟩ => ⟨S4x2048x512, .f32⟩
  | .hbm, ⟨15, _⟩ => ⟨S4x2048x512, .f32⟩
  | .hbm, ⟨16, _⟩ => ⟨S1x1x512, .f32⟩
  | .hbm, ⟨17, _⟩ => ⟨S4x2048x512, .f32⟩
  | .hbm, ⟨18, _⟩ => ⟨S4x2048x512, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x512_S512x512_S4x2048x512_2_0_01_1_n_n_wf : DotDims.WF S4x2048x512 S512x512 S4x2048x512 [2] [0] [0, 1] [1] [] []
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]

variable [Facts₀]

def dot_S4x2048x512_S512x512_S4x2048x512_2_0_01_1_n_n : DotDims S4x2048x512 S512x512 S4x2048x512 where
  lhsContracting := [2]
  rhsContracting := [0]
  lhsNonContracting := [0, 1]
  rhsNonContracting := [1]
  lhsBatch := []
  rhsBatch := []
  wf := dot_S4x2048x512_S512x512_S4x2048x512_2_0_01_1_n_n_wf
def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf

class Facts : Prop extends Facts₀ where

variable [Facts]
-- ==== Proof.KernelPieces.lean ====
/-
  What the body leaves in the output's staging buffer, store by store.

  The body's only stores into the output block are the loop's: trip k stores, through the rectangle of rows
  256·k … 256·k + 255, the trip's result computed from the key and value projections (read back whole from their
  scratch buffers, where the body has just stored them) and from rows 256·k … 256·k + 255 of the query projection
  (read through the trip's rectangle of the scratch buffer that holds it). So every piece of the run's list of stores
  is such a trip's piece, for some trip k.
-/
import proofs.«100204_j10548439679537_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The store of trip `k`: the rows' rectangle of the output block, and the trip's result from the key projection
    `v34`, the value projection `v35` and the trip's rows of the buffer `X9` holding the query projection. -/
def tripPiece (arg9 : Memref sig .tc .vmem S2048x512 .f32) (v34 : Vec F S2048x512 .f32) (v35 : Vec F S2048x512 .bf16)
    (X9 : BufTy.Contents (Elt F) arg9.view.ty) (k : Fin k0_t1_loop.trips) : View.Piece (Elt F) S1x2048x512 .f32 :=
  ⟨Rect.unit (s := S1x2048x512) (k0_off2 k) S1x256x512.size (k0_off2_inb k),
    k0_pay1 v34 v35 (View.readAt (Elt F) arg9.view (Rect.unit (s := S2048x512) (k0_off1 k) S256x512.size (k0_off1_inb k)).toLoadRect X9)⟩

/-- A trip's list of stores is its one piece. -/
theorem tripL_eq (𝒱 : Variants) (bd : Option 𝒱.V) (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (v34 : Vec F S2048x512 .f32) (v35 : Vec F S2048x512 .bf16)
    (X9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 v34 v35 X9 k = [tripPiece arg9 v34 v35 X9 k] := by
  unfold tripL_k0_t1 trip_k0_t1
  rfl

/-- Every store of the trips before `n` is some trip's piece. -/
theorem pb_mem (𝒱 : Variants) (bd : Option 𝒱.V) (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (v34 : Vec F S2048x512 .f32) (v35 : Vec F S2048x512 .bf16)
    (X9 : BufTy.Contents (Elt F) arg9.view.ty) :
    ∀ (n : ℕ) (p : View.Piece (Elt F) S1x2048x512 .f32),
      p ∈ pb_k0_t1 (F := F) 𝒱 c bd i arg1 harg1 arg2 harg2 arg3 harg3 arg4 harg4 arg5 harg5 arg6 harg6 arg7 harg7 arg8 harg8 arg9 harg9 arg10 harg10 arg11 harg11 v34 v35 X9 n → ∃ k : Fin k0_t1_loop.trips, p = tripPiece arg9 v34 v35 X9 k
  | 0, p, hp => by
    rw [pb_k0_t1.eq_1] at hp
    exact absurd hp List.not_mem_nil
  | n + 1, p, hp => by
    rw [pb_k0_t1.eq_2] at hp
    unfold pb_k0_t1Step at hp
    split at hp
    · rename_i h
      rw [tripL_eq, List.singleton_append, List.mem_cons] at hp
      rcases hp with rfl | hp
      · exact ⟨⟨n, h⟩, rfl⟩
      · exact pb_mem 𝒱 bd c i arg1 harg1 arg2 harg2 arg3 harg3 arg4 harg4 arg5 harg5 arg6 harg6 arg7 harg7 arg8 harg8 arg9 harg9 arg10 harg10 arg11 harg11 v34 v35 X9 n p hp
    · exact pb_mem 𝒱 bd c i arg1 harg1 arg2 harg2 arg3 harg3 arg4 harg4 arg5 harg5 arg6 harg6 arg7 harg7 arg8 harg8 arg9 harg9 arg10 harg10 arg11 harg11 v34 v35 X9 n p hp

/-- The run's list of stores into the output block is the loop's, with the key and value projections as stored just
    before and the query projection read from the scratch buffer it was stored into. -/
theorem run_pieces (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (x0 : Vec F S1x2048x512 .f32) (x1 : Vec F S512x512 .bf16) (x2 : Vec F S512x512 .bf16) (x3 : Vec F S512x512 .bf16) (x4 : Vec F S512 .f32) (x5 : Vec F S512 .f32) (x6 : Vec F S512 .f32) :
    (kernelRun0_A c i arg1 harg1 arg2 harg2 arg3 harg3 arg4 harg4 arg5 harg5 arg6 harg6 arg7 harg7 arg8 harg8 arg9 harg9 arg10 harg10 arg11 harg11 x0 x1 x2 x3 x4 x5 x6).1
      = pb_k0_t1 (F := F) Variants.none c none i arg1 harg1 arg2 harg2 arg3 harg3 arg4 harg4 arg5 harg5 arg6 harg6 arg7 harg7 arg8 harg8 arg9 harg9 arg10 harg10 arg11 harg11 (k0_pay4 x0 x2 x5) (k0_pay5 x0 x3 x6)
          (arg9.view.writes (Elt F) arg9.view.junk
            [⟨Rect.unit (s := S2048x512) ![0, 0] S2048x512.size inb_S2048x512_S2048x512_0_0, k0_pay3 x0 x1 x4⟩])
          (Scf.trips (0#32) (Scalar.addi 0#32 8#32) 1#32) := by
  unfold kernelRun0_A
  dsimp only
  sl_unfold_words
  simp only [View.readAt_eq_ld, Memref.IsWhole.read_unread, View.ld_unit_zero (S := S1x2048x512) zeros3,
    View.ld_unit_zero (S := S512x512) zeros2, View.ld_unit_zero (S := S512) zeros1,
    View.readCov_unit_zero (S := S2048x512) _ zeros2]

end Cert.KernelIdeal.Pieces

end
-- ==== Proof.Spec.lean ====
/-
  Single-head attention without scaling, written over plain coordinate functions.

  For one batch row, with X the 2048 × 512 input rows and (W, β) a 512 × 512 weight matrix and a bias:
    proj X W β n e  = Σ_d X n d · W d e + β e                       (a projected row entry)
  and, for a query row q (512 entries) against the projected keys K and values V (2048 × 512 each):
    s j             = Σ_e q e · K j e                               (the row's scores)
    rowMax s        = the maximum of the 2048 scores, folded from −∞
    weight s j      = exp (s j − rowMax s) / Σ_j' exp (s j' − rowMax s)
    rowMix q K V e  = Σ_j weight s j · V j e                        (the attention output entry).
  Everything is on the extended reals, with the exact operations; no law of arithmetic is used here: both
  programs compute these very expressions, and the two sums that carry an initial value (0 for the sum of
  exponentials, −∞ for the maximum) are normalised to the forms above.
-/
import Idealize.ShloMosaic.PureOps.Ideal
import Idealize.ShloMosaic.PureOps.Ideal.Laws

noncomputable section

namespace Cert.Attn

open Idealize.ShloMosaic

/-- The f32 pattern of −∞, the value every row maximum is folded from. -/
def negInf : EReal := Ideal.ofBits .f32 0xFF800000#32

/-- That pattern denotes the bottom of the extended reals. -/
theorem negInf_eq_bot : negInf = ⊥ := by
  simp [negInf, Ideal.ofBits, Ideal.ieee]

/-- A projected entry: row `n` of `X` against column `e` of `W`, plus the bias. -/
def proj (X : Fin 2048 → Fin 512 → EReal) (W : Fin 512 → Fin 512 → EReal) (β : Fin 512 → EReal)
    (n : Fin 2048) (e : Fin 512) : EReal :=
  (∑ d : Fin 512, X n d * W d e) + β e

/-- The scores of a query row against every key row. -/
def scores (q : Fin 512 → EReal) (K : Fin 2048 → Fin 512 → EReal) (j : Fin 2048) : EReal :=
  ∑ e : Fin 512, q e * K j e

/-- The largest of a row's scores, folded from −∞. -/
def rowMax (s : Fin 2048 → EReal) : EReal :=
  (Finset.univ : Finset (Fin 2048)).fold max negInf s

/-- The exponentials of the scores shifted by their maximum. -/
def shifted (s : Fin 2048 → EReal) (j : Fin 2048) : EReal := Ideal.exp (s j - rowMax s)

/-- The softmax weight of key `j`. -/
def weight (s : Fin 2048 → EReal) (j : Fin 2048) : EReal :=
  Ideal.div (shifted s j) (∑ j' : Fin 2048, shifted s j')

/-- One entry of the attention output of a query row. -/
def rowMix (q : Fin 512 → EReal) (K V : Fin 2048 → Fin 512 → EReal) (e : Fin 512) : EReal :=
  ∑ j : Fin 2048, weight (scores q K) j * V j e

/-- The maximum with −∞ in front changes nothing. -/
theorem max_negInf_left (x : EReal) : max negInf x = x := by
  rw [negInf_eq_bot]; exact max_eq_right bot_le

end Cert.Attn

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelTile.lean ====
/-
  The arithmetic of the kernel's stores, read entry by entry on the extended reals.

  Before its loop the body stores three projections of the staged 2048 × 512 block of x (query, key, value:
  each a product with a 512 × 512 weight matrix plus a bias row); each trip of the loop then takes 256 query rows,
  scores them against all 2048 key rows, normalises each row of scores by a softmax and mixes the 2048 value rows
  with those weights. Read at one entry, each stored value is the specification's expression of the same name:
  a projection entry is `Attn.proj`, and the entry (r, e) of a trip's 256 × 512 result is `Attn.rowMix` of the
  r-th query row of the tile. A matrix product at an entry is the sum over the contracted coordinate of the
  operands' products; a row maximum is the fold of max from −∞ over the row; a row sum the sum over the row;
  the changes of float format are the identity.
-/
import proofs.«100204_j10548439679537_2_alg».proof.Proof.Gen.KernelIdeal.Skeleton
import proofs.«100204_j10548439679537_2_alg».proof.Proof.Spec
import proofs.«100204_j10548439679537_2_alg».proof.Proof.LibLayoutCol
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.Attn

/-- The projections' product: [2048, 512] rows against [512, 512], contracting the row's 512 entries. -/
abbrev Dproj := dot_S2048x512_S512x512_S2048x512_1_0_0_1_n_n
/-- The scores' product: [256, 512] query rows against [2048, 512] key rows, contracting the 512 entries of both. -/
abbrev Dscore := dot_S256x512_S2048x512_S256x2048_1_1_0_0_n_n
/-- The mixing product: [256, 2048] weights against [2048, 512] value rows, contracting the 2048 keys. -/
abbrev Dmix := dot_S256x2048_S2048x512_S256x512_1_0_0_1_n_n

/-! ## The three matrix products at an entry -/

theorem Dproj_lhs0 (i : S2048x512.Idx) (q : Dproj.contr.Idx) : (Dproj.lhsIdx i q 0).val = (i 0).val := by
  unfold DotDims.lhsIdx
  rw [dif_neg (show ¬(0 : Fin S2048x512.rank) ∈ Dproj.lhsBatch by decide), dif_pos (show (0 : Fin S2048x512.rank) ∈ Dproj.lhsNonContracting by decide)]
  rfl
theorem Dproj_lhs1 (i : S2048x512.Idx) (q : Dproj.contr.Idx) : (Dproj.lhsIdx i q 1).val = (q ⟨0, by decide⟩).val :=
  Dproj.lhsIdx_val_of_single rfl i q
theorem Dproj_rhs0 (i : S2048x512.Idx) (q : Dproj.contr.Idx) : (Dproj.rhsIdx i q 0).val = (q ⟨0, by decide⟩).val :=
  Dproj.rhsIdx_val_of_single rfl i q
theorem Dproj_rhs1 (i : S2048x512.Idx) (q : Dproj.contr.Idx) : (Dproj.rhsIdx i q 1).val = (i 1).val := by
  unfold DotDims.rhsIdx
  rw [dif_neg (show ¬(1 : Fin S512x512.rank) ∈ Dproj.rhsBatch by decide), dif_pos (show (1 : Fin S512x512.rank) ∈ Dproj.rhsNonContracting by decide)]
  rfl

/-- Rows times a square matrix into a zero accumulator: entry (n, e) is Σ_d l(n, d) · r(d, e). -/
theorem matmul_Dproj_apply {φ₁ φ₂ : FTy} (prec : Option ContractPrecision) (l : FVec Ideal S2048x512 φ₁) (r : FVec Ideal S512x512 φ₂)
    (n : Fin 2048) (e : Fin 512) :
    matmul Dproj prec l r (constant (F := Ideal) S2048x512 .f32 0x00000000#32) (ix2 n e) = ∑ d : Fin 512, l (ix2 n d) * r (ix2 d e) := by
  show FloatOps.matmul Dproj prec l r (constant (F := Ideal) S2048x512 .f32 0x00000000#32) (ix2 n e) = _
  rw [Ideal.matmul_constant_zero_apply, ← Equiv.sum_comp (contrEquiv1 Dproj 512 rfl rfl).symm]
  refine Finset.sum_congr rfl fun k _ => ?_
  have hk := contrEquiv1_symm_val Dproj 512 rfl rfl k
  have el : Dproj.lhsIdx (ix2 n e) ((contrEquiv1 Dproj 512 rfl rfl).symm k) = ix2 n k := funext fun a => Fin.ext (by
    match a with
    | ⟨0, _⟩ => exact Dproj_lhs0 _ _
    | ⟨1, _⟩ => exact (Dproj_lhs1 _ _).trans hk)
  have er : Dproj.rhsIdx (ix2 n e) ((contrEquiv1 Dproj 512 rfl rfl).symm k) = ix2 k e := funext fun a => Fin.ext (by
    match a with
    | ⟨0, _⟩ => exact (Dproj_rhs0 _ _).trans hk
    | ⟨1, _⟩ => exact Dproj_rhs1 _ _)
  rw [el, er]

theorem Dscore_lhs0 (i : S256x2048.Idx) (q : Dscore.contr.Idx) : (Dscore.lhsIdx i q 0).val = (i 0).val := by
  unfold DotDims.lhsIdx
  rw [dif_neg (show ¬(0 : Fin S256x512.rank) ∈ Dscore.lhsBatch by decide), dif_pos (show (0 : Fin S256x512.rank) ∈ Dscore.lhsNonContracting by decide)]
  rfl
theorem Dscore_lhs1 (i : S256x2048.Idx) (q : Dscore.contr.Idx) : (Dscore.lhsIdx i q 1).val = (q ⟨0, by decide⟩).val :=
  Dscore.lhsIdx_val_of_single rfl i q
theorem Dscore_rhs0 (i : S256x2048.Idx) (q : Dscore.contr.Idx) : (Dscore.rhsIdx i q 0).val = (i 1).val := by
  unfold DotDims.rhsIdx
  rw [dif_neg (show ¬(0 : Fin S2048x512.rank) ∈ Dscore.rhsBatch by decide), dif_pos (show (0 : Fin S2048x512.rank) ∈ Dscore.rhsNonContracting by decide)]
  rfl
theorem Dscore_rhs1 (i : S256x2048.Idx) (q : Dscore.contr.Idx) : (Dscore.rhsIdx i q 1).val = (q ⟨0, by decide⟩).val :=
  Dscore.rhsIdx_val_of_single rfl i q

/-- Query rows against key rows into a zero accumulator: entry (r, j) is Σ_e l(r, e) · k(j, e). -/
theorem matmul_Dscore_apply {φ₁ φ₂ : FTy} (prec : Option ContractPrecision) (l : FVec Ideal S256x512 φ₁) (r : FVec Ideal S2048x512 φ₂)
    (p : Fin 256) (j : Fin 2048) :
    matmul Dscore prec l r (constant (F := Ideal) S256x2048 .f32 0x00000000#32) (ix2 p j) = ∑ e : Fin 512, l (ix2 p e) * r (ix2 j e) := by
  show FloatOps.matmul Dscore prec l r (constant (F := Ideal) S256x2048 .f32 0x00000000#32) (ix2 p j) = _
  rw [Ideal.matmul_constant_zero_apply, ← Equiv.sum_comp (contrEquiv1 Dscore 512 rfl rfl).symm]
  refine Finset.sum_congr rfl fun k _ => ?_
  have hk := contrEquiv1_symm_val Dscore 512 rfl rfl k
  have el : Dscore.lhsIdx (ix2 p j) ((contrEquiv1 Dscore 512 rfl rfl).symm k) = ix2 p k := funext fun a => Fin.ext (by
    match a with
    | ⟨0, _⟩ => exact Dscore_lhs0 _ _
    | ⟨1, _⟩ => exact (Dscore_lhs1 _ _).trans hk)
  have er : Dscore.rhsIdx (ix2 p j) ((contrEquiv1 Dscore 512 rfl rfl).symm k) = ix2 j k := funext fun a => Fin.ext (by
    match a with
    | ⟨0, _⟩ => exact Dscore_rhs0 _ _
    | ⟨1, _⟩ => exact (Dscore_rhs1 _ _).trans hk)
  rw [el, er]

theorem Dmix_lhs0 (i : S256x512.Idx) (q : Dmix.contr.Idx) : (Dmix.lhsIdx i q 0).val = (i 0).val := by
  unfold DotDims.lhsIdx
  rw [dif_neg (show ¬(0 : Fin S256x2048.rank) ∈ Dmix.lhsBatch by decide), dif_pos (show (0 : Fin S256x2048.rank) ∈ Dmix.lhsNonContracting by decide)]
  rfl
theorem Dmix_lhs1 (i : S256x512.Idx) (q : Dmix.contr.Idx) : (Dmix.lhsIdx i q 1).val = (q ⟨0, by decide⟩).val :=
  Dmix.lhsIdx_val_of_single rfl i q
theorem Dmix_rhs0 (i : S256x512.Idx) (q : Dmix.contr.Idx) : (Dmix.rhsIdx i q 0).val = (q ⟨0, by decide⟩).val :=
  Dmix.rhsIdx_val_of_single rfl i q
theorem Dmix_rhs1 (i : S256x512.Idx) (q : Dmix.contr.Idx) : (Dmix.rhsIdx i q 1).val = (i 1).val := by
  unfold DotDims.rhsIdx
  rw [dif_neg (show ¬(1 : Fin S2048x512.rank) ∈ Dmix.rhsBatch by decide), dif_pos (show (1 : Fin S2048x512.rank) ∈ Dmix.rhsNonContracting by decide)]
  rfl

/-- Weights times value rows into a zero accumulator: entry (r, e) is Σ_j w(r, j) · v(j, e). -/
theorem matmul_Dmix_apply {φ₁ φ₂ : FTy} (prec : Option ContractPrecision) (l : FVec Ideal S256x2048 φ₁) (r : FVec Ideal S2048x512 φ₂)
    (p : Fin 256) (e : Fin 512) :
    matmul Dmix prec l r (constant (F := Ideal) S256x512 .f32 0x00000000#32) (ix2 p e) = ∑ j : Fin 2048, l (ix2 p j) * r (ix2 j e) := by
  show FloatOps.matmul Dmix prec l r (constant (F := Ideal) S256x512 .f32 0x00000000#32) (ix2 p e) = _
  rw [Ideal.matmul_constant_zero_apply, ← Equiv.sum_comp (contrEquiv1 Dmix 2048 rfl rfl).symm]
  refine Finset.sum_congr rfl fun k _ => ?_
  have hk := contrEquiv1_symm_val Dmix 2048 rfl rfl k
  have el : Dmix.lhsIdx (ix2 p e) ((contrEquiv1 Dmix 2048 rfl rfl).symm k) = ix2 p k := funext fun a => Fin.ext (by
    match a with
    | ⟨0, _⟩ => exact Dmix_lhs0 _ _
    | ⟨1, _⟩ => exact (Dmix_lhs1 _ _).trans hk)
  have er : Dmix.rhsIdx (ix2 p e) ((contrEquiv1 Dmix 2048 rfl rfl).symm k) = ix2 k e := funext fun a => Fin.ext (by
    match a with
    | ⟨0, _⟩ => exact (Dmix_rhs0 _ _).trans hk
    | ⟨1, _⟩ => exact Dmix_rhs1 _ _)
  rw [el, er]

/-! ## The two row reductions at an entry -/

/-- The row's index with the reduced coordinate put back is the matrix index (r, j). -/
theorem lift_row (r : Fin 256) (j : Fin 2048) : reduces_S256x2048_S256.lift (ix1 r) j = ix2 r j :=
  funext fun a => Fin.ext (by
    match a with
    | ⟨0, _⟩ => rfl
    | ⟨1, _⟩ => rfl)

/-- The maximum along a row of scores is the fold of max over the row's 2048 entries, from −∞. -/
theorem rowMax_apply (x : FVec Ideal S256x2048 .f32) (r : Fin 256) :
    multiReduction .maximumf [1] S256 x 0xFF800000#32 reduces_S256x2048_S256 (.inl rfl) rfl (ix1 r)
      = rowMax (fun j => x (ix2 r j)) := by
  refine (Ideal.multiReduction_maximumf_single x _ reduces_S256x2048_S256 (.inl rfl) rfl (ix1 r)).trans ?_
  unfold rowMax negInf
  refine congrArg (fun f : Fin 2048 → EReal => (Finset.univ : Finset (Fin 2048)).fold max (Ideal.ofBits .f32 0xFF800000#32) f) ?_
  funext j
  exact congrArg x (lift_row r j)

/-- The sum along a row is the sum over the row's 2048 entries. -/
theorem rowSum_apply (x : FVec Ideal S256x2048 .f32) (r : Fin 256) :
    multiReduction .add [1] S256 x 0x00000000#32 reduces_S256x2048_S256 (.inl rfl) rfl (ix1 r)
      = ∑ j : Fin 2048, x (ix2 r j) := by
  refine (Ideal.multiReduction_add_single x _ reduces_S256x2048_S256 (.inl rfl) rfl (ix1 r)).trans ?_
  refine Finset.sum_congr rfl fun j _ => ?_
  exact congrArg x (lift_row r j)

end Cert.KernelIdeal.Tile

end
-- ==== Proof.KernelPay.lean ====
/-
  The kernel's stored values at an entry are the specification's expressions.

  Projections (stored whole before the loop): entry (n, e) of each is `Attn.proj` of the staged block's rows, the
  weight matrix and the bias. A trip's result (stored through the trip's 256-row rectangle): entry (r, e) is
  `Attn.rowMix` of the tile's r-th query row against all the key and value rows.
-/
import proofs.«100204_j10548439679537_2_alg».proof.Proof.KernelTile

noncomputable section

namespace Cert.KernelIdeal.Tile

open Cert.KernelIdeal Cert.KernelIdeal.Gen Idealize.ShloMosaic Idealize.ShloMosaic.ValueIdx Cert.Attn

/-- The rows of the staged block of x, the weight matrix and the bias as coordinate functions. -/
abbrev rowsOf (x0 : FVec Ideal S1x2048x512 .f32) : Fin 2048 → Fin 512 → EReal := fun n d => x0 (ix3 (0 : Fin 1) n d)
abbrev matOf (w : FVec Ideal S512x512 .bf16) : Fin 512 → Fin 512 → EReal := fun d e => w (ix2 d e)
abbrev vecOf (b : FVec Ideal S512 .f32) : Fin 512 → EReal := fun e => b (ix1 e)

/-- The block of x cast to a matrix and rounded to bf16 (the identity on the extended reals), at an entry. -/
theorem pay2_apply (v0 : FVec Ideal S1x2048x512 .f32) (n : Fin 2048) (d : Fin 512) :
    k0_pay2 (F := Ideal) v0 (ix2 n d) = v0 (ix3 (0 : Fin 1) n d) := by
  unfold k0_pay2
  exact shapeCast_1ab_ab_apply v0 shapeCasts_S1x2048x512_S2048x512 n d

/-- The bias row repeated over the 2048 rows, at an entry. -/
theorem biasRows_apply (b : FVec Ideal S512 .f32) (n : Fin 2048) (e : Fin 512) :
    broadcastTo S2048x512 (shapeCast S1x512 b shapeCasts_S512_S1x512) broadcasts_S1x512_S2048x512 (ix2 n e) = b (ix1 e) :=
  (broadcastTo_1b_ab_apply _ broadcasts_S1x512_S2048x512 n e).trans (shapeCast_a_1a_apply b shapeCasts_S512_S1x512 0 e)

/-- The product of the block's rows with a weight matrix plus the bias, at an entry: the projection. -/
theorem projTerm_apply (v0 : FVec Ideal S1x2048x512 .f32) (w : FVec Ideal S512x512 .bf16) (b : FVec Ideal S512 .f32)
    (n : Fin 2048) (e : Fin 512) :
    addf (matmul Dproj none (k0_pay2 (F := Ideal) v0) (shapeCast S512x512 w shapeCasts_S512x512_S512x512) (constant (F := Ideal) S2048x512 .f32 0x00000000#32))
        (broadcastTo S2048x512 (shapeCast S1x512 b shapeCasts_S512_S1x512) broadcasts_S1x512_S2048x512) (ix2 n e)
      = proj (rowsOf v0) (matOf w) (vecOf b) n e := by
  rw [addf_apply, matmul_Dproj_apply, biasRows_apply, shapeCast_self]
  unfold proj
  refine congrArg (· + b (ix1 e)) (Finset.sum_congr rfl fun d _ => ?_)
  rw [pay2_apply]

/-- The stored query projection at an entry. -/
theorem pay3_apply (v0 : FVec Ideal S1x2048x512 .f32) (v3 : FVec Ideal S512x512 .bf16) (v10 : FVec Ideal S512 .f32)
    (n : Fin 2048) (e : Fin 512) :
    k0_pay3 (F := Ideal) v0 v3 v10 (ix2 n e) = proj (rowsOf v0) (matOf v3) (vecOf v10) n e := by
  unfold k0_pay3
  rw [shapeCast_self]
  exact projTerm_apply v0 v3 v10 n e

/-- The stored key projection at an entry. -/
theorem pay4_apply (v0 : FVec Ideal S1x2048x512 .f32) (v5 : FVec Ideal S512x512 .bf16) (v15 : FVec Ideal S512 .f32)
    (n : Fin 2048) (e : Fin 512) :
    k0_pay4 (F := Ideal) v0 v5 v15 (ix2 n e) = proj (rowsOf v0) (matOf v5) (vecOf v15) n e := by
  unfold k0_pay4
  rw [shapeCast_self]
  exact projTerm_apply v0 v5 v15 n e

/-- The stored value projection (rounded to bf16: the identity) at an entry. -/
theorem pay5_apply (v0 : FVec Ideal S1x2048x512 .f32) (v7 : FVec Ideal S512x512 .bf16) (v20 : FVec Ideal S512 .f32)
    (n : Fin 2048) (e : Fin 512) :
    k0_pay5 (F := Ideal) v0 v7 v20 (ix2 n e) = proj (rowsOf v0) (matOf v7) (vecOf v20) n e := by
  unfold k0_pay5
  rw [shapeCast_self]
  exact projTerm_apply v0 v7 v20 n e

/-- A [256] column of row statistics spread over the 2048 columns, at an entry: the row's statistic. -/
theorem colSpread_apply (s : FVec Ideal S256 .f32) (r : Fin 256) (j : Fin 2048) :
    broadcastTo S256x2048 (shapeCast S256x1 s shapeCasts_S256_S256x1) broadcasts_S256x1_S256x2048 (ix2 r j) = s (ix1 r) :=
  (broadcastTo_a1_ab_apply _ broadcasts_S256x1_S256x2048 r j).trans (shapeCast_a_a1_apply s shapeCasts_S256_S256x1 r 0)

/-- The exponential of a row's scores shifted by the row's maximum, at an entry. -/
theorem expShift_apply (V : FVec Ideal S256x2048 .f32) (r : Fin 256) (j : Fin 2048) :
    exp (subf V (broadcastTo S256x2048 (shapeCast S256x1 (multiReduction .maximumf [1] S256 V 0xFF800000#32 reduces_S256x2048_S256 (.inl rfl) rfl) shapeCasts_S256_S256x1) broadcasts_S256x1_S256x2048)) (ix2 r j)
      = shifted (fun j' => V (ix2 r j')) j := by
  show Ideal.exp (V (ix2 r j) - _) = _
  rw [colSpread_apply, rowMax_apply]
  rfl

/-- A trip's stored result at entry (r, e): the attention output of the tile's r-th query row. -/
theorem pay1_apply (v34 : FVec Ideal S2048x512 .f32) (v35 : FVec Ideal S2048x512 .bf16) (v42 : FVec Ideal S256x512 .f32)
    (u : Fin 1) (r : Fin 256) (e : Fin 512) :
    k0_pay1 (F := Ideal) v34 v35 v42 (ix3 u r e)
      = rowMix (fun e' => v42 (ix2 r e')) (fun j e' => v34 (ix2 j e')) (fun j e' => v35 (ix2 j e')) e := by
  unfold k0_pay1
  refine (shapeCast_ab_1ab_apply _ shapeCasts_S256x512_S1x256x512 u r e).trans ?_
  rw [matmul_Dmix_apply]
  unfold rowMix
  refine Finset.sum_congr rfl fun j _ => ?_
  refine congrArg (· * v35 (ix2 j e)) ?_
  -- the scores of row r are the contraction of the query row with every key row
  have hrow : (fun j' : Fin 2048 => matmul Dscore (some .fp32) v42 v34 (constant (F := Ideal) S256x2048 .f32 0x00000000#32) (ix2 r j'))
      = scores (fun e' => v42 (ix2 r e')) (fun j e' => v34 (ix2 j e')) := funext fun j' => matmul_Dscore_apply _ v42 v34 r j'
  rw [truncf_apply, divf_apply, colSpread_apply, rowSum_apply]
  have hexp := fun j' : Fin 2048 =>
    expShift_apply (matmul Dscore (some .fp32) v42 v34 (constant (F := Ideal) S256x2048 .f32 0x00000000#32)) r j'
  refine (congrArg₂ Ideal.div (hexp j) (Finset.sum_congr rfl fun j' _ => hexp j')).trans ?_
  rw [hrow]
  rfl

end Cert.KernelIdeal.Tile

end
-- ==== Proof.KernelBlock.lean ====
/-
  The output block the body leaves is the attention of the staged rows.

  With the trips' stores identified (each the trip's result through the trip's rows), every store agrees with one
  function of the block's index: entry (·, n, e) is `Attn.rowMix` of the n-th projected query row of the staged
  block against the block's projected keys and values. The stores tile the block, so the block read back is that
  function.
-/
import proofs.«100204_j10548439679537_2_alg».proof.Proof.KernelPieces
import proofs.«100204_j10548439679537_2_alg».proof.Proof.KernelPay

set_option maxRecDepth 16384

noncomputable section

namespace Cert.KernelIdeal.Block

open Cert.KernelIdeal Cert.KernelIdeal.Gen Cert.KernelIdeal.Tile Cert.KernelIdeal.Pieces Cert.Attn
open Idealize.ShloMosaic Idealize.ShloMosaic.TcCoe Idealize.ShloMosaic.ValueIdx
open Idealize.SL Idealize.SL.Sem

/-- The attention of one staged block of x: entry (·, n, e) from the block's rows, the three weight matrices and biases. -/
def blockOut (x0 : FVec Ideal S1x2048x512 .f32) (x1 x2 x3 : FVec Ideal S512x512 .bf16) (x4 x5 x6 : FVec Ideal S512 .f32) :
    S1x2048x512.Idx → EReal := fun y =>
  rowMix (proj (rowsOf x0) (matOf x1) (vecOf x4) (y 1)) (proj (rowsOf x0) (matOf x2) (vecOf x5))
    (proj (rowsOf x0) (matOf x3) (vecOf x6)) (y 2)

/-- A trip index is below 8. -/
theorem trip_lt (k : Fin k0_t1_loop.trips) : k.val < 8 := Nat.lt_of_lt_of_le k.isLt k0_t1_abs.2.1

/-- Row `r` of trip `k`'s tile is row 256·k + r of the block. -/
def tileRow (k : Fin k0_t1_loop.trips) (r : Fin 256) : Fin 2048 :=
  ⟨256 * k.val + r.val, by have := trip_lt k; have := r.isLt; omega⟩

/-- The trip's rectangle of the query buffer places (r, e) at (256·k + r, e). -/
theorem tile_idx (k : Fin k0_t1_loop.trips) (r : Fin 256) (e : Fin 512) :
    (Rect.unit (s := S2048x512) (k0_off1 k) S256x512.size (k0_off1_inb k)).toLoadRect.idx (ix2 r e) = ix2 (tileRow k r) e :=
  funext fun a => Fin.ext (by
    match a with
    | ⟨0, _⟩ =>
      show k0_off1 k 0 + 1 * r.val = 256 * k.val + r.val
      rw [k0_off1_eq k]; show 256 * k.val + 1 * r.val = _; omega
    | ⟨1, _⟩ =>
      show k0_off1 k 1 + 1 * e.val = e.val
      rw [k0_off1_eq k]; show 0 + 1 * e.val = _; omega)

/-- The trip's rectangle of the output block places (u, r, e) at (0, 256·k + r, e). -/
theorem tile_emb (k : Fin k0_t1_loop.trips) (u : Fin 1) (r : Fin 256) (e : Fin 512) :
    (Rect.unit (s := S1x2048x512) (k0_off2 k) S1x256x512.size (k0_off2_inb k)).emb (ix3 u r e) = ix3 (0 : Fin 1) (tileRow k r) e :=
  funext fun a => Fin.ext (by
    match a with
    | ⟨0, _⟩ =>
      show k0_off2 k 0 + 1 * u.val = 0
      rw [k0_off2_eq k]; show 0 + 1 * u.val = 0; omega
    | ⟨1, _⟩ =>
      show k0_off2 k 1 + 1 * r.val = 256 * k.val + r.val
      rw [k0_off2_eq k]; show 256 * k.val + 1 * r.val = _; omega
    | ⟨2, _⟩ =>
      show k0_off2 k 2 + 1 * e.val = e.val
      rw [k0_off2_eq k]; show 0 + 1 * e.val = _; omega)

/-- The trip's rows of the buffer holding the stored query projection are rows 256·k … of that projection. -/
theorem tile_read (arg9 : Memref sig .tc .vmem S2048x512 .f32) (Q : S2048x512.Idx → EReal) (k : Fin k0_t1_loop.trips)
    (r : Fin 256) (e : Fin 512) :
    View.readAt (Elt Ideal) arg9.view (Rect.unit (s := S2048x512) (k0_off1 k) S256x512.size (k0_off1_inb k)).toLoadRect
        (arg9.view.writes (Elt Ideal) arg9.view.junk
          [⟨Rect.unit (s := S2048x512) ![0, 0] S2048x512.size inb_S2048x512_S2048x512_0_0, Q⟩]) (ix2 r e)
      = Q (ix2 (tileRow k r) e) := by
  rw [View.readAt_writes_junk_eq_canon, View.canon_unit_zero zeros2]
  exact congrArg Q (tile_idx k r e)

/-- The value trip `k` stores at (u, r, e) is the block function at the place the store puts it. -/
theorem trip_value (arg9 : Memref sig .tc .vmem S2048x512 .f32) (x0 : FVec Ideal S1x2048x512 .f32)
    (x1 x2 x3 : FVec Ideal S512x512 .bf16) (x4 x5 x6 : FVec Ideal S512 .f32) (k : Fin k0_t1_loop.trips)
    (u : Fin 1) (r : Fin 256) (e : Fin 512) :
    k0_pay1 (F := Ideal) (k0_pay4 (F := Ideal) x0 x2 x5) (k0_pay5 (F := Ideal) x0 x3 x6)
        (View.readAt (Elt Ideal) arg9.view (Rect.unit (s := S2048x512) (k0_off1 k) S256x512.size (k0_off1_inb k)).toLoadRect
          (arg9.view.writes (Elt Ideal) arg9.view.junk
            [⟨Rect.unit (s := S2048x512) ![0, 0] S2048x512.size inb_S2048x512_S2048x512_0_0, k0_pay3 (F := Ideal) x0 x1 x4⟩]))
        (ix3 u r e)
      = blockOut x0 x1 x2 x3 x4 x5 x6 (ix3 (0 : Fin 1) (tileRow k r) e) := by
  rw [pay1_apply]
  have hQ : (fun e' : Fin 512 =>
      View.readAt (Elt Ideal) arg9.view (Rect.unit (s := S2048x512) (k0_off1 k) S256x512.size (k0_off1_inb k)).toLoadRect
        (arg9.view.writes (Elt Ideal) arg9.view.junk
          [⟨Rect.unit (s := S2048x512) ![0, 0] S2048x512.size inb_S2048x512_S2048x512_0_0, k0_pay3 (F := Ideal) x0 x1 x4⟩]) (ix2 r e'))
      = proj (rowsOf x0) (matOf x1) (vecOf x4) (tileRow k r) :=
    funext fun e' => (tile_read arg9 (k0_pay3 (F := Ideal) x0 x1 x4) k r e').trans (pay3_apply x0 x1 x4 (tileRow k r) e')
  have hK : (fun (j : Fin 2048) (e' : Fin 512) => k0_pay4 (F := Ideal) x0 x2 x5 (ix2 j e')) = proj (rowsOf x0) (matOf x2) (vecOf x5) :=
    funext fun j => funext fun e' => pay4_apply x0 x2 x5 j e'
  have hV : (fun (j : Fin 2048) (e' : Fin 512) => k0_pay5 (F := Ideal) x0 x3 x6 (ix2 j e')) = proj (rowsOf x0) (matOf x3) (vecOf x6) :=
    funext fun j => funext fun e' => pay5_apply x0 x3 x6 j e'
  rw [hQ, hK, hV]
  rfl

/-- Every store of the run agrees with the block function. -/
theorem pieces_agree (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (x0 : FVec Ideal S1x2048x512 .f32) (x1 x2 x3 : FVec Ideal S512x512 .bf16) (x4 x5 x6 : FVec Ideal S512 .f32)
    (p : View.Piece (Elt Ideal) S1x2048x512 .f32)
    (hp : p ∈ (kernelRun0_A (F := Ideal) c i arg1 harg1 arg2 harg2 arg3 harg3 arg4 harg4 arg5 harg5 arg6 harg6 arg7 harg7 arg8 harg8 arg9 harg9 arg10 harg10 arg11 harg11 x0 x1 x2 x3 x4 x5 x6).1) (x : p.1.shape.Idx) :
    p.2 x = blockOut x0 x1 x2 x3 x4 x5 x6 (p.1.emb x) := by
  rw [run_pieces (F := Ideal)] at hp
  obtain ⟨k, rfl⟩ := pb_mem (F := Ideal) Variants.none none c i arg1 harg1 arg2 harg2 arg3 harg3 arg4 harg4 arg5 harg5 arg6 harg6 arg7 harg7 arg8 harg8 arg9 harg9 arg10 harg10 arg11 harg11 _ _ _ _ p hp
  obtain ⟨u, r, e, rfl⟩ : ∃ (u : Fin 1) (r : Fin 256) (e : Fin 512), x = ix3 u r e := ⟨x 0, x 1, x 2, eq_ix3 x⟩
  refine (trip_value arg9 x0 x1 x2 x3 x4 x5 x6 k u r e).trans ?_
  exact congrArg (blockOut x0 x1 x2 x3 x4 x5 x6) (tile_emb k u r e).symm

/-- What the body leaves in the output block: the attention of the staged rows. -/
theorem out_eq (c : Dev nD) (i : grid0.Coords) (arg1 : Memref sig .tc .vmem S1x2048x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S1x2048x512 .f32) (harg8 : arg8.IsWhole) (arg9 : Memref sig .tc .vmem S2048x512 .f32) (harg9 : arg9.IsWhole) (arg10 : Memref sig .tc .vmem S2048x512 .f32) (harg10 : arg10.IsWhole) (arg11 : Memref sig .tc .vmem S2048x512 .bf16) (harg11 : arg11.IsWhole) (x0 : FVec Ideal S1x2048x512 .f32) (x1 x2 x3 : FVec Ideal S512x512 .bf16) (x4 x5 x6 : FVec Ideal S512 .f32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = blockOut x0 x1 x2 x3 x4 x5 x6 := by
  unfold out0_A_7
  rw [View.read_writes_junk_eq_canon]
  funext y
  exact View.canon_apply_of_pieces (blockOut x0 x1 x2 x3 x4 x5 x6) _
    (fun p hp x => pieces_agree c i arg1 harg1 arg2 harg2 arg3 harg3 arg4 harg4 arg5 harg5 arg6 harg6 arg7 harg7 arg8 harg8 arg9 harg9 arg10 harg10 arg11 harg11 x0 x1 x2 x3 x4 x5 x6 p hp x) y
    (cover0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 y)

end Cert.KernelIdeal.Block

end
-- ==== Proof.SpecArr.lean ====
/-
  The attention output as one function of the seven argument arrays, index by index.

  Entry (b, n, e) of the result is `Attn.rowMix` of the n-th projected query row of batch row b against that batch row's
  projected keys and values; the projections are `Attn.proj` of the batch row's 2048 × 512 slice of x with the three
  weight matrices and biases.
-/
import proofs.«100204_j10548439679537_2_alg».proof.Proof.Spec
import Idealize.ShloMosaic.Lib.ValueIdx

noncomputable section

namespace Cert.Attn

open Idealize.ShloMosaic Idealize.ShloMosaic.ValueIdx

/-- The shapes of x (and of the result), of a weight matrix and of a bias. -/
abbrev Sx : Shape := ⟨3, ![4, 2048, 512]⟩
abbrev Sw : Shape := ⟨2, ![512, 512]⟩
abbrev Sb : Shape := ⟨1, ![512]⟩

/-- Batch row `b` of x as a matrix of coordinates. -/
abbrev slab (x : Sx.Idx → EReal) (b : Fin 4) : Fin 2048 → Fin 512 → EReal := fun n d => x (ix3 b n d)
/-- A weight matrix and a bias as coordinate functions. -/
abbrev mat (w : Sw.Idx → EReal) : Fin 512 → Fin 512 → EReal := fun d e => w (ix2 d e)
abbrev vec (β : Sb.Idx → EReal) : Fin 512 → EReal := fun e => β (ix1 e)

/-- The attention output at (b, n, e). -/
def attnAt (x : Sx.Idx → EReal) (wq : Sw.Idx → EReal) (bq : Sb.Idx → EReal) (wk : Sw.Idx → EReal) (bk : Sb.Idx → EReal)
    (wv : Sw.Idx → EReal) (bv : Sb.Idx → EReal) (b : Fin 4) (n : Fin 2048) (e : Fin 512) : EReal :=
  rowMix (proj (slab x b) (mat wq) (vec bq) n) (proj (slab x b) (mat wk) (vec bk)) (proj (slab x b) (mat wv) (vec bv)) e

/-- The attention output as an array. -/
def attnArr (x : Sx.Idx → EReal) (wq : Sw.Idx → EReal) (bq : Sb.Idx → EReal) (wk : Sw.Idx → EReal) (bk : Sb.Idx → EReal)
    (wv : Sw.Idx → EReal) (bv : Sb.Idx → EReal) : Sx.Idx → EReal :=
  fun i => attnAt x wq bq wk bk wv bv (i 0) (i 1) (i 2)

theorem attnArr_ix3 (x : Sx.Idx → EReal) (wq : Sw.Idx → EReal) (bq : Sb.Idx → EReal) (wk : Sw.Idx → EReal) (bk : Sb.Idx → EReal)
    (wv : Sw.Idx → EReal) (bv : Sb.Idx → EReal) (b : Fin 4) (n : Fin 2048) (e : Fin 512) :
    attnArr x wq bq wk bk wv bv (ix3 b n e) = attnAt x wq bq wk bk wv bv b n e := rfl

end Cert.Attn

end
-- ==== Proof.KernelArray.lean ====
/-
  The kernel's result array after the run is the attention array of its arguments.

  Grid point t stages batch row t of x (block index t on the leading axis, the whole of the other two) and the three
  weight matrices and biases whole; by the block lemma it leaves in the output block the attention of those rows,
  which is block t of the attention array. The four blocks cover the result array: batch row b lies in block b.
  The weight matrices the region stages are the arguments' rounded to bf16 by the host, which on the extended reals
  are the arguments themselves.
-/
import proofs.«100204_j10548439679537_2_alg».proof.Proof.KernelBlock
import proofs.«100204_j10548439679537_2_alg».proof.Proof.SpecArr
import proofs.«100204_j10548439679537_2_alg».proof.Proof.Gen.KernelIdeal.Value
import Idealize.ShloMosaic.Lib.StableHlo.Run

set_option maxRecDepth 16384

noncomputable section

namespace Cert.KernelIdeal.Arr

open Cert.KernelIdeal Cert.KernelIdeal.Gen Cert.KernelIdeal.Tile Cert.KernelIdeal.Block Cert.Attn
open Idealize.ShloMosaic Idealize.ShloMosaic.TcCoe Idealize.ShloMosaic.ValueIdx Idealize.ShloMosaic.StableHlo
open Idealize.SL Idealize.SL.Sem
open Idealize.ShloMosaic.Pipeline (Dat)

variable (m : (ℓ : Loc nD τ sig) → Buf (Elt Ideal) ℓ) (ρ : Dev nD → PrngReg)

/-- A block of a staged x against the array it was cut from: if the block's rows are batch row `b` of the array and
    the staged matrices and biases are the arrays' own, the block's attention is the array's at batch row `b`. -/
theorem blockOut_eq_attnAt (x0 : FVec Ideal S1x2048x512 .f32) (x1 x2 x3 : FVec Ideal S512x512 .bf16) (x4 x5 x6 : FVec Ideal S512 .f32)
    (X : Sx.Idx → EReal) (Wq : Sw.Idx → EReal) (bq : Sb.Idx → EReal) (Wk : Sw.Idx → EReal) (bk : Sb.Idx → EReal)
    (Wv : Sw.Idx → EReal) (bv : Sb.Idx → EReal) (b : Fin 4)
    (h0 : ∀ (n : Fin 2048) (d : Fin 512), x0 (ix3 (0 : Fin 1) n d) = X (ix3 b n d))
    (h1 : ∀ (d e : Fin 512), x1 (ix2 d e) = Wq (ix2 d e)) (h2 : ∀ (d e : Fin 512), x2 (ix2 d e) = Wk (ix2 d e))
    (h3 : ∀ (d e : Fin 512), x3 (ix2 d e) = Wv (ix2 d e))
    (h4 : ∀ e : Fin 512, x4 (ix1 e) = bq (ix1 e)) (h5 : ∀ e : Fin 512, x5 (ix1 e) = bk (ix1 e)) (h6 : ∀ e : Fin 512, x6 (ix1 e) = bv (ix1 e))
    (u : Fin 1) (n : Fin 2048) (e : Fin 512) :
    blockOut x0 x1 x2 x3 x4 x5 x6 (ix3 u n e) = attnAt X Wq bq Wk bk Wv bv b n e := by
  have e0 : rowsOf x0 = slab X b := funext fun n => funext fun d => h0 n d
  have e1 : matOf x1 = mat Wq := funext fun d => funext fun e => h1 d e
  have e2 : matOf x2 = mat Wk := funext fun d => funext fun e => h2 d e
  have e3 : matOf x3 = mat Wv := funext fun d => funext fun e => h3 d e
  have e4 : vecOf x4 = vec bq := funext fun e => h4 e
  have e5 : vecOf x5 = vec bk := funext fun e => h5 e
  have e6 : vecOf x6 = vec bv := funext fun e => h6 e
  unfold blockOut attnAt
  rw [e0, e1, e2, e3, e4, e5, e6]

/-- The printed index maps over the grid: x and the result move with the point along the leading axis; every other
    block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 3) = t.val ∧ win0_7.index t (1 : Fin 3) = 0 ∧ win0_7.index t (2 : Fin 3) = 0 :=
  (by decide +kernel : ∀ t : Fin grid0.N, _)

/-- A grid point as a batch row. -/
def rowOf (t : Fin cfg0.N) : Fin 4 := ⟨t.val, Nat.lt_of_lt_of_eq t.isLt N_0⟩

/-! ## The staged blocks read off the arrays as the region finds them -/

theorem blk0 (c : Dev nD) (t : Fin cfg0.N) (n : Fin 2048) (d : Fin 512) :
    iblk m c 0 t (ix3 (0 : Fin 1) n d) = V m c main_arg0 (ix3 (rowOf t) n d) := by
  show V m c main_arg0 (((cfg0.win 0).blk t).view.emb (ix3 (0 : Fin 1) n d)) = V m c main_arg0 (ix3 (rowOf t) n d)
  obtain ⟨f0, f1, f2, -⟩ := idx_facts t
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 512 + 1 * d.val = d.val; omega

theorem blk1 (c : Dev nD) (t : Fin cfg0.N) (d e : Fin 512) : iblk m c 1 t (ix2 d e) = V m c main_v0 (ix2 d e) := by
  show V m c main_v0 (((cfg0.win 1).blk t).view.emb (ix2 d e)) = V m c main_v0 (ix2 d e)
  obtain ⟨-, -, -, f0, f1, -⟩ := idx_facts t
  refine congrArg _ (funext fun a => Fin.ext ?_)
  match a with
  | ⟨0, _⟩ => show win0_1.index t (0 : Fin 2) * 512 + 1 * d.val = d.val; omega
  | ⟨1, _⟩ => show win0_1.index t (1 : Fin 2) * 512 + 1 * e.val = e.val; omega

theorem blk2 (c : Dev nD) (t : Fin cfg0.N) (d e : Fin 512) : iblk m c 2 t (ix2 d e) = V m c main_v1 (ix2 d e) := by
  show V m c main_v1 (((cfg0.win 2).blk t).view.emb (ix2 d e)) = V m c main_v1 (ix2 d e)
  obtain ⟨-, -, -, -, -, f0, f1, -⟩ := idx_facts t
  refine congrArg _ (funext fun a => Fin.ext ?_)
  match a with
  | ⟨0, _⟩ => show win0_2.index t (0 : Fin 2) * 512 + 1 * d.val = d.val; omega
  | ⟨1, _⟩ => show win0_2.index t (1 : Fin 2) * 512 + 1 * e.val = e.val; omega

theorem blk3 (c : Dev nD) (t : Fin cfg0.N) (d e : Fin 512) : iblk m c 3 t (ix2 d e) = V m c main_v2 (ix2 d e) := by
  show V m c main_v2 (((cfg0.win 3).blk t).view.emb (ix2 d e)) = V m c main_v2 (ix2 d e)
  obtain ⟨-, -, -, -, -, -, -, f0, f1, -⟩ := idx_facts t
  refine congrArg _ (funext fun a => Fin.ext ?_)
  match a with
  | ⟨0, _⟩ => show win0_3.index t (0 : Fin 2) * 512 + 1 * d.val = d.val; omega
  | ⟨1, _⟩ => show win0_3.index t (1 : Fin 2) * 512 + 1 * e.val = e.val; omega

theorem blk4 (c : Dev nD) (t : Fin cfg0.N) (e : Fin 512) : iblk m c 4 t (ix1 e) = V m c main_arg2 (ix1 e) := by
  show V m c main_arg2 (((cfg0.win 4).blk t).view.emb (ix1 e)) = V m c main_arg2 (ix1 e)
  obtain ⟨-, -, -, -, -, -, -, -, -, f0, -⟩ := idx_facts t
  refine congrArg _ (funext fun a => Fin.ext ?_)
  match a with
  | ⟨0, _⟩ => show win0_4.index t (0 : Fin 1) * 512 + 1 * e.val = e.val; omega

theorem blk5 (c : Dev nD) (t : Fin cfg0.N) (e : Fin 512) : iblk m c 5 t (ix1 e) = V m c main_arg4 (ix1 e) := by
  show V m c main_arg4 (((cfg0.win 5).blk t).view.emb (ix1 e)) = V m c main_arg4 (ix1 e)
  obtain ⟨-, -, -, -, -, -, -, -, -, -, f0, -⟩ := idx_facts t
  refine congrArg _ (funext fun a => Fin.ext ?_)
  match a with
  | ⟨0, _⟩ => show win0_5.index t (0 : Fin 1) * 512 + 1 * e.val = e.val; omega

theorem blk6 (c : Dev nD) (t : Fin cfg0.N) (e : Fin 512) : iblk m c 6 t (ix1 e) = V m c main_arg6 (ix1 e) := by
  show V m c main_arg6 (((cfg0.win 6).blk t).view.emb (ix1 e)) = V m c main_arg6 (ix1 e)
  obtain ⟨-, -, -, -, -, -, -, -, -, -, -, f0, -⟩ := idx_facts t
  refine congrArg _ (funext fun a => Fin.ext ?_)
  match a with
  | ⟨0, _⟩ => show win0_6.index t (0 : Fin 1) * 512 + 1 * e.val = e.val; omega

/-! ## What a point writes back, the cover, the array -/

/-- The attention array of the arrays the region finds. -/
abbrev regionArr (c : Dev nD) : S4x2048x512.Idx → EReal :=
  attnArr (V m c main_arg0) (V m c main_v0) (V m c main_arg2) (V m c main_v1) (V m c main_arg4) (V m c main_v2) (V m c main_arg6)

/-- The output block at point `t` places (u, n, e) at (t, n, e). -/
theorem out_emb (t : Fin cfg0.N) (u : Fin 1) (n : Fin 2048) (e : Fin 512) :
    ((cfg0.win 7).blk t).view.emb (ix3 u n e) = ix3 (rowOf t) n e := by
  obtain ⟨-, -, -, -, -, -, -, -, -, -, -, -, f0, f1, f2⟩ := idx_facts t
  refine funext fun a => Fin.ext ?_
  match a with
  | ⟨0, _⟩ => show win0_7.index t (0 : Fin 3) * 1 + 1 * u.val = t.val; have := u.isLt; omega
  | ⟨1, _⟩ => show win0_7.index t (1 : Fin 3) * 2048 + 1 * n.val = n.val; omega
  | ⟨2, _⟩ => show win0_7.index t (2 : Fin 3) * 512 + 1 * e.val = e.val; omega

/-- WHAT POINT `t` WRITES BACK is block `t` of the attention array. -/
theorem flushed_eq (c : Dev nD) (t : Fin cfg0.N) :
    (dats m 0 c).flushed 7 t = ((cfg0.win 7).blk t).view.read (Elt Ideal) (regionArr m c) := by
  rw [Value.flushed7_A]
  refine (congrArg ((cfg0.win 7).cut (grid0.coords t))
    (out_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _) scM0_1 (Memref.isWhole_whole _)
      scM0_2 (Memref.isWhole_whole _) (iblk m c 0 t) (iblk m c 1 t) (iblk m c 2 t) (iblk m c 3 t) (iblk m c 4 t) (iblk m c 5 t)
      (iblk m c 6 t))).trans ?_
  funext y
  obtain ⟨u, n, e, rfl⟩ : ∃ (u : Fin 1) (n : Fin 2048) (e : Fin 512), y = ix3 u n e := ⟨y 0, y 1, y 2, eq_ix3 y⟩
  show blockOut (iblk m c 0 t) (iblk m c 1 t) (iblk m c 2 t) (iblk m c 3 t) (iblk m c 4 t) (iblk m c 5 t) (iblk m c 6 t) (ix3 u n e)
    = regionArr m c (((cfg0.win 7).blk t).view.emb (ix3 u n e))
  rw [out_emb]
  exact blockOut_eq_attnAt (iblk m c 0 t) (iblk m c 1 t) (iblk m c 2 t) (iblk m c 3 t) (iblk m c 4 t) (iblk m c 5 t) (iblk m c 6 t)
    (V m c main_arg0) (V m c main_v0) (V m c main_arg2) (V m c main_v1) (V m c main_arg4) (V m c main_v2) (V m c main_arg6) (rowOf t)
    (blk0 m c t) (blk1 m c t) (blk2 m c t) (blk3 m c t) (blk4 m c t) (blk5 m c t) (blk6 m c t) u n e

/-- An index of the result is in point `t`'s block iff each coordinate is in the block's range on its axis. -/
theorem mem_blk (t : Fin cfg0.N) (i : S4x2048x512.Idx) :
    i ∈ ((cfg0.win 7).blk t).view.set ↔ ∀ a : Fin 3, win0_7.index t a * S1x2048x512.size a ≤ (i a).val ∧ (i a).val < win0_7.index t a * S1x2048x512.size a + S1x2048x512.size a := by
  show i ∈ ((View.whole main_v3).slice (win0_7.rect t)).set ↔ _
  rw [View.set_slice_whole, Rect.mem_set_unit]
  exact Iff.rfl

/-- Every index of the result lies in the block of the point its batch row names. -/
theorem cover (i : S4x2048x512.Idx) : ∃ t : Fin cfg0.N, (cfg0.win 7).flush t = true ∧ i ∈ ((cfg0.win 7).blk t).view.set := by
  have hi0 : (i 0).val < 4 := (i 0).isLt
  have hi1 : (i 1).val < 2048 := (i 1).isLt
  have hi2 : (i 2).val < 512 := (i 2).isLt
  let t : Fin cfg0.N := ⟨(i 0).val, Nat.lt_of_lt_of_eq hi0 N_0.symm⟩
  obtain ⟨-, -, -, -, -, -, -, -, -, -, -, -, f0, f1, f2⟩ := idx_facts t
  have f0' : win0_7.index t (0 : Fin 3) = (i 0).val := f0
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 2048 ≤ (i 1).val ∧ (i 1).val < win0_7.index t (1 : Fin 3) * 2048 + 2048; omega
  | ⟨2, _⟩ => show win0_7.index t (2 : Fin 3) * 512 ≤ (i 2).val ∧ (i 2).val < win0_7.index t (2 : Fin 3) * 512 + 512; omega

/-- THE ARRAY after the run: the attention array of the arrays the region finds. -/
theorem final (c : Dev nD) : (dats m 0 c).arrAt 7 cfg0.N = regionArr m c :=
  (dats m 0 c).arrAt_eq_of_cover 7 (regionArr m c) (fun t _ => flushed_eq m c t) cover

/-! ## The arrays the region finds -/

/-- The host's bf16 roundings of the three weight matrices are, on the extended reals, the matrices. -/
theorem V_v0 (c : Dev nD) : (V m c main_v0 : S512x512.Idx → EReal) = m ((c : Thread nD τ).loc main_arg1) := by
  dsimp only [Gen.V, Gen.hostOps0]; after_results; rfl
theorem V_v1 (c : Dev nD) : (V m c main_v1 : S512x512.Idx → EReal) = m ((c : Thread nD τ).loc main_arg3) := by
  dsimp only [Gen.V, Gen.hostOps0]; after_results; rfl
theorem V_v2 (c : Dev nD) : (V m c main_v2 : S512x512.Idx → EReal) = m ((c : Thread nD τ).loc main_arg5) := by
  dsimp only [Gen.V, Gen.hostOps0]; after_results; rfl

/-- The attention array of the kernel's arguments as launched. -/
abbrev argsArr (c : Dev nD) : S4x2048x512.Idx → EReal :=
  attnArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem regionArr_eq (c : Dev nD) : regionArr m c = argsArr m c := by
  unfold regionArr argsArr
  rw [V_v0, V_v1, V_v2, V_main_arg0, V_main_arg2, V_main_arg4, V_main_arg6]

/-! ## The run, read -/

/-- Every weakly fair execution of the idealized kernel terminates with the result array at the attention array of the
    arguments, the arguments unchanged. -/
theorem run : θ_run defs (onTc (τ := τ) (main (F := Ideal))) ⟨m, fun _ => 0, ρ⟩ fun r => ∀ c : Dev nD,
      r.2.mem ((c : Thread nD τ).loc main_v3) = argsArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1.trans (final m c)).trans (regionArr_eq m c), (h c).2⟩)
    (Value.run_blocks m ρ)

end Cert.KernelIdeal.Arr

end
-- ==== Proof.RefValue.lean ====
/-
  The reference computes the specification.

  Read one operation at a time at an index, the reference's result entry (b, n, e) is the sum over the 2048 keys of the
  softmax weight of key j in row (b, n) times the value projection's entry (b, j, e); the weight is the exponential of
  the score minus the row's maximum, divided by the row's sum of such exponentials (the host sum starts from the
  constant 0, the host maximum from −∞ and is then compared once more with −∞: both starts drop out); a score is the
  contraction of a projected query row with a projected key row, and a projection entry the contraction of a row of x
  with a column of the weight matrix plus the bias entry. These are `Attn.rowMix`, `Attn.weight`, `Attn.scores` and
  `Attn.proj`.
-/
import proofs.«100204_j10548439679537_2_alg».proof.Proof.Gen.ReferenceIdeal.Read
import proofs.«100204_j10548439679537_2_alg».proof.Proof.SpecArr
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.Attn

variable (x0 : S4x2048x512.Idx → EReal) (x1 : S512x512.Idx → EReal) (x2 : S512.Idx → EReal)
  (x3 : S512x512.Idx → EReal) (x4 : S512.Idx → EReal) (x5 : S512x512.Idx → EReal) (x6 : S512.Idx → EReal)

/-! ## The three projections -/

theorem bias_idx (b : Fin 4) (n : Fin 2048) (e : Fin 512) : idx_main_v1 (idx_main_v2 (ix3 b n e)) = ix1 e :=
  funext fun a => Fin.ext (by match a with | ⟨0, _⟩ => rfl)

theorem v3_at (b : Fin 4) (n : Fin 2048) (e : Fin 512) :
    val_main_v3 (F := Ideal) x0 x1 x2 (ix3 b n e) = proj (slab x0 b) (mat x1) (vec x2) n e := by
  rw [val_main_v3_apply, val_main_v0_apply, val_main_v2_apply, val_main_v1_apply]
  show (∑ k : Fin 512, _) + _ = _
  unfold proj
  have hb : idx_main_v1 (idx_main_v2 (ix3 b n e)) = ix1 e := bias_idx b n e
  rw [hb]
  refine congrArg (· + x2 (ix1 e)) (Finset.sum_congr rfl fun k _ => ?_)
  have el : lidx_main_v0 (ix3 b n e) k = ix3 b n k := funext fun a => Fin.ext (by match a with | ⟨0, _⟩ => rfl | ⟨1, _⟩ => rfl | ⟨2, _⟩ => rfl)
  have er : ridx_main_v0 (ix3 b n e) k = ix2 k e := funext fun a => Fin.ext (by match a with | ⟨0, _⟩ => rfl | ⟨1, _⟩ => rfl)
  rw [el, er]

theorem v7_at (b : Fin 4) (n : Fin 2048) (e : Fin 512) :
    val_main_v7 (F := Ideal) x0 x3 x4 (ix3 b n e) = proj (slab x0 b) (mat x3) (vec x4) n e := by
  rw [val_main_v7_apply, val_main_v4_apply, val_main_v6_apply, val_main_v5_apply]
  show (∑ k : Fin 512, _) + _ = _
  unfold proj
  have hb : idx_main_v5 (idx_main_v6 (ix3 b n e)) = ix1 e := funext fun a => Fin.ext (by match a with | ⟨0, _⟩ => rfl)
  rw [hb]
  refine congrArg (· + x4 (ix1 e)) (Finset.sum_congr rfl fun k _ => ?_)
  have el : lidx_main_v4 (ix3 b n e) k = ix3 b n k := funext fun a => Fin.ext (by match a with | ⟨0, _⟩ => rfl | ⟨1, _⟩ => rfl | ⟨2, _⟩ => rfl)
  have er : ridx_main_v4 (ix3 b n e) k = ix2 k e := funext fun a => Fin.ext (by match a with | ⟨0, _⟩ => rfl | ⟨1, _⟩ => rfl)
  rw [el, er]

theorem v11_at (b : Fin 4) (n : Fin 2048) (e : Fin 512) :
    val_main_v11 (F := Ideal) x0 x5 x6 (ix3 b n e) = proj (slab x0 b) (mat x5) (vec x6) n e := by
  rw [val_main_v11_apply, val_main_v8_apply, val_main_v10_apply, val_main_v9_apply]
  show (∑ k : Fin 512, _) + _ = _
  unfold proj
  have hb : idx_main_v9 (idx_main_v10 (ix3 b n e)) = ix1 e := funext fun a => Fin.ext (by match a with | ⟨0, _⟩ => rfl)
  rw [hb]
  refine congrArg (· + x6 (ix1 e)) (Finset.sum_congr rfl fun k _ => ?_)
  have el : lidx_main_v8 (ix3 b n e) k = ix3 b n k := funext fun a => Fin.ext (by match a with | ⟨0, _⟩ => rfl | ⟨1, _⟩ => rfl | ⟨2, _⟩ => rfl)
  have er : ridx_main_v8 (ix3 b n e) k = ix2 k e := funext fun a => Fin.ext (by match a with | ⟨0, _⟩ => rfl | ⟨1, _⟩ => rfl)
  rw [el, er]

/-! ## Scores, their row maximum, the shifted exponentials and their row sum -/

/-- The scores of row (b, n) of the reference. -/
abbrev refScores (b : Fin 4) (n : Fin 2048) : Fin 2048 → EReal :=
  scores (proj (slab x0 b) (mat x1) (vec x2) n) (proj (slab x0 b) (mat x3) (vec x4))

theorem v12_at (b : Fin 4) (n j : Fin 2048) :
    val_main_v12 (F := Ideal) x0 x1 x2 x3 x4 (ix3 b n j) = refScores x0 x1 x2 x3 x4 b n j := by
  rw [val_main_v12_apply]
  unfold refScores scores
  refine Finset.sum_congr rfl fun k _ => ?_
  have el : lidx_main_v12 (ix3 b n j) k = ix3 b n k := funext fun a => Fin.ext (by match a with | ⟨0, _⟩ => rfl | ⟨1, _⟩ => rfl | ⟨2, _⟩ => rfl)
  have er : ridx_main_v12 (ix3 b n j) k = ix3 b j k := funext fun a => Fin.ext (by match a with | ⟨0, _⟩ => rfl | ⟨1, _⟩ => rfl | ⟨2, _⟩ => rfl)
  rw [el, er, v3_at, v7_at]

/-- The reduction's witness at the literal shapes. -/
theorem reduces_keys : S4x2048x2048.Reduces [2] S4x2048 := by decide

theorem lift_keys (b : Fin 4) (n j : Fin 2048) : reduces_keys.lift (ix2 b n) j = ix3 b n j :=
  funext fun a => Fin.ext (by match a with | ⟨0, _⟩ => rfl | ⟨1, _⟩ => rfl | ⟨2, _⟩ => rfl)

/-- The row maximum the reference subtracts: the fold of max over the row's scores, from −∞. -/
theorem v15_at (b : Fin 4) (n : Fin 2048) :
    val_main_v15 (F := Ideal) x0 x1 x2 x3 x4 (ix2 b n) = rowMax (refScores x0 x1 x2 x3 x4 b n) := by
  rw [val_main_v15_apply, val_main_v14_apply]
  unfold val_main_v13
  rw [Host.reduce_eq_fold_single FloatOps.maximumf _ _ reducesTo_S4x2048x2048_S4x2048_d2 reduces_keys h_S_ (ix2 b n)]
  have hf : (val_main_v12 (F := Ideal) x0 x1 x2 x3 x4 ∘ reduces_keys.lift (ix2 b n)) = refScores x0 x1 x2 x3 x4 b n :=
    funext fun j =>
      (congrArg (val_main_v12 (F := Ideal) x0 x1 x2 x3 x4) (lift_keys b n j)).trans (v12_at x0 x1 x2 x3 x4 b n j)
  rw [hf]
  exact max_negInf_left _

theorem stat_idx (b : Fin 4) (n j : Fin 2048) : idx_main_v16 (idx_main_v17 (ix3 b n j)) = ix2 b n :=
  funext fun a => Fin.ext (by match a with | ⟨0, _⟩ => rfl | ⟨1, _⟩ => rfl)

theorem v19_at (b : Fin 4) (n j : Fin 2048) :
    val_main_v19 (F := Ideal) x0 x1 x2 x3 x4 (ix3 b n j) = shifted (refScores x0 x1 x2 x3 x4 b n) j := by
  rw [val_main_v19_apply, val_main_v18_apply, val_main_v17_apply, val_main_v16_apply, stat_idx, v15_at, v12_at]
  rfl

theorem v20_at (b : Fin 4) (n : Fin 2048) :
    val_main_v20 (F := Ideal) x0 x1 x2 x3 x4 (ix2 b n) = ∑ j : Fin 2048, shifted (refScores x0 x1 x2 x3 x4 b n) j := by
  rw [val_main_v20_apply, val_main_cst_1_apply]
  show Ideal.ofBits .f32 0x00000000#32 + _ = _
  rw [Ideal.ofBits_zero_f32, zero_add]
  refine Finset.sum_congr rfl fun j _ => ?_
  have ei : idx_main_v20 (ix2 b n) j = ix3 b n j := funext fun a => Fin.ext (by match a with | ⟨0, _⟩ => rfl | ⟨1, _⟩ => rfl | ⟨2, _⟩ => rfl)
  rw [ei, v19_at]

theorem sum_idx (b : Fin 4) (n j : Fin 2048) : idx_main_v21 (idx_main_v22 (ix3 b n j)) = ix2 b n :=
  funext fun a => Fin.ext (by match a with | ⟨0, _⟩ => rfl | ⟨1, _⟩ => rfl)

/-- The softmax weight of key j in row (b, n). -/
theorem v23_at (b : Fin 4) (n j : Fin 2048) :
    val_main_v23 (F := Ideal) x0 x1 x2 x3 x4 (ix3 b n j) = weight (refScores x0 x1 x2 x3 x4 b n) j := by
  rw [val_main_v23_apply, val_main_v22_apply, val_main_v21_apply, sum_idx, v20_at, v19_at]
  rfl

/-! ## The result -/

/-- The reference's result, as a function of its seven arguments, is the attention array. -/
theorem result_eq : val_main_v24 (F := Ideal) x0 x1 x2 x3 x4 x5 x6 = attnArr x0 x1 x2 x3 x4 x5 x6 := by
  funext i
  obtain ⟨b, n, e, rfl⟩ : ∃ (b : Fin 4) (n : Fin 2048) (e : Fin 512), i = ix3 b n e := ⟨i 0, i 1, i 2, eq_ix3 i⟩
  rw [attnArr_ix3, val_main_v24_apply]
  unfold attnAt rowMix
  refine Finset.sum_congr rfl fun j _ => ?_
  have el : lidx_main_v24 (ix3 b n e) j = ix3 b n j := funext fun a => Fin.ext (by match a with | ⟨0, _⟩ => rfl | ⟨1, _⟩ => rfl | ⟨2, _⟩ => rfl)
  have er : ridx_main_v24 (ix3 b n e) j = ix3 b j e := funext fun a => Fin.ext (by match a with | ⟨0, _⟩ => rfl | ⟨1, _⟩ => rfl | ⟨2, _⟩ => rfl)
  rw [el, er, v23_at, v11_at]

end Cert.ReferenceIdeal.RefValue

end
-- ==== Proof.lean ====
/-
  A fused single-head attention kernel against the plain attention of its reference, on the extended reals.

  Both programs compute, for each of the 4 batch rows of x (2048 rows of 512 entries), three projections
  q = x·Wq + bq, k = x·Wk + bk, v = x·Wv + bv, the unscaled scores q·kᵀ, a softmax along each row of scores taken as
  exp(s − max s) / Σ exp(s − max s), and the mixture of the value rows with those weights. The kernel does it one
  batch row per grid point, keeping q, k and v in scratch buffers and looping over eight tiles of 256 query rows; it
  rounds x, the weights, v and the softmax weights to bf16 on the way into its matrix products, which on the extended
  reals changes nothing. The reference does it with whole-array operations.

  The claim's five parts: the three frames (both kernels' are the generated frame runs; the reference's is its
  generated run with the result dropped); the idealization recorded no rewrite, so its statement is trivial; and the
  value claim, where the kernel's run ends with the result array at `Attn.attnArr` of the arguments
  (`KernelIdeal.Arr.run`: the loop's stores each agree with one function of the block, the blocks cover the array)
  and the reference's run ends at the same function of its arguments (`ReferenceIdeal.RefValue.result_eq`: read one
  operation at a time). No law of arithmetic joins the two sides: entry by entry they are the same expression, the
  sums over the same index sets; so the precondition is never opened.
-/
import proofs.«100204_j10548439679537_2_alg».proof.Defs
import proofs.«100204_j10548439679537_2_alg».proof.Proof.Gen.Kernel
import proofs.«100204_j10548439679537_2_alg».proof.Proof.Gen.Kernel.Frame
import proofs.«100204_j10548439679537_2_alg».proof.Proof.Gen.KernelIdeal
import proofs.«100204_j10548439679537_2_alg».proof.Proof.Gen.KernelIdeal.Frame
import proofs.«100204_j10548439679537_2_alg».proof.Proof.Gen.KernelIdeal.Value
import proofs.«100204_j10548439679537_2_alg».proof.Proof.Gen.ReferenceIdeal
import proofs.«100204_j10548439679537_2_alg».proof.Proof.Gen.ReferenceIdeal.Run
import proofs.«100204_j10548439679537_2_alg».proof.Proof.Gen.ReferenceIdeal.Read
import proofs.«100204_j10548439679537_2_alg».proof.Proof.Gen.Pre_finite_inputs
import proofs.«100204_j10548439679537_2_alg».proof.Proof.KernelArray
import proofs.«100204_j10548439679537_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame run. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the seven arguments both runs end with the result at the attention array of those
    arguments. -/
theorem algebraic : Cert.algebraic_KernelIdeal_ReferenceIdeal := by
  intro m ρ m' ρ' _ hagree
  refine ⟨fun c => Cert.KernelIdeal.Arr.argsArr m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.result_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
